-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x1x64x64 : Shape := ⟨4, ![16, 1, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S16x1x64x64 : S_.BroadcastsInDim S16x1x64x64 (![] : Fin 0 → Fin S16x1x64x64.rank)
  reducesTo_S16x1x64x64_S_d0_1_2_3 : S16x1x64x64.ReducesTo [0, 1, 2, 3] S_

variable [Facts]

def fn_part1 {F : FTy → Type} [FloatOps F] (main_arg3 : IVec S16x1x64x64 32) (main_v15 : IVec S_ 1) (main_c_5 : IVec S_ 32) : IVec S_ 1 :=
  let main_v16 : IVec S16x1x64x64 32 := broadcastInDim S16x1x64x64 ![] bcast_S_S16x1x64x64 main_c_5
  let main_v17 : IVec S16x1x64x64 1 := cmpi .eq main_arg3 main_v16
  let main_c_6 : IVec S_ 32 := constantI S_ 32 1#32
  let main_v18 : IVec S16x1x64x64 32 := broadcastInDim S16x1x64x64 ![] bcast_S_S16x1x64x64 main_c_6
  let main_v19 : IVec S16x1x64x64 1 := cmpi .eq main_arg3 main_v18
  let main_v20 : IVec S16x1x64x64 1 := ori main_v17 main_v19
  let main_c_7 : IVec S_ 1 := constantI S_ 1 1#1
  let main_v21 : IVec S_ 1 := (fun x v => Host.reduce IntOp.andi x v reducesTo_S16x1x64x64_S_d0_1_2_3 h_S_) main_v20 main_c_7
  let main_v22 : IVec S_ 1 := andi main_v15 main_v21
  main_v22

def fn {F : FTy → Type} [FloatOps F] (main_arg0 : FVec F S16x512x64x64 .f32) (main_arg1 : FVec F S16x512x64x64 .f32) (main_arg2 : IVec S16x1x64x64 32) (main_arg3 : IVec S16x1x64x64 32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  let main_c_2 : IVec S_ 32 := constantI S_ 32 0#32
  let main_v9 : IVec S16x1x64x64 32 := broadcastInDim S16x1x64x64 ![] bcast_S_S16x1x64x64 main_c_2
  let main_v10 : IVec S16x1x64x64 1 := cmpi .eq main_arg2 main_v9
  let main_c_3 : IVec S_ 32 := constantI S_ 32 1#32
  let main_v11 : IVec S16x1x64x64 32 := broadcastInDim S16x1x64x64 ![] bcast_S_S16x1x64x64 main_c_3
  let main_v12 : IVec S16x1x64x64 1 := cmpi .eq main_arg2 main_v11
  let main_v13 : IVec S16x1x64x64 1 := ori main_v10 main_v12
  let main_c_4 : IVec S_ 1 := constantI S_ 1 1#1
  let main_v14 : IVec S_ 1 := (fun x v => Host.reduce IntOp.andi x v reducesTo_S16x1x64x64_S_d0_1_2_3 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S16x512x64x64 : Shape := ⟨4, ![16, 512, 64, 64]⟩
abbrev S16x1x64x64 : Shape := ⟨4, ![16, 1, 64, 64]⟩
abbrev S16x512x4096 : Shape := ⟨3, ![16, 512, 4096]⟩
abbrev S16x1x4096 : Shape := ⟨3, ![16, 1, 4096]⟩
abbrev S1x128x4096 : Shape := ⟨3, ![1, 128, 4096]⟩
abbrev S1x1x4096 : Shape := ⟨3, ![1, 1, 4096]⟩
abbrev S128x4096 : Shape := ⟨2, ![128, 4096]⟩
abbrev S1x4096 : Shape := ⟨2, ![1, 4096]⟩
abbrev S1 : Shape := ⟨1, ![1]⟩
abbrev S1x1 : Shape := ⟨2, ![1, 1]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x1x64x64, .i32⟩
  | .hbm, ⟨3, _⟩ => ⟨S16x1x64x64, .i32⟩
  | .hbm, ⟨4, _⟩ => ⟨S16x512x4096, .f32⟩
  | .hbm, ⟨5, _⟩ => ⟨S16x512x4096, .f32⟩
  | .hbm, ⟨6, _⟩ => ⟨S16x1x4096, .i32⟩
  | .hbm, ⟨7, _⟩ => ⟨S16x1x4096, .i32⟩
  | .hbm, ⟨8, _⟩ => ⟨S16x512x4096, .f32⟩
  | .hbm, ⟨9, _⟩ => ⟨S16x512x64x64, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x1x4096, .i32⟩
  | .local _ .vmem, ⟨5, _⟩ => ⟨S1x1x4096, .i32⟩
  | .local _ .vmem, ⟨6, _⟩ => ⟨S1x1x4096, .i32⟩
  | .local _ .vmem, ⟨7, _⟩ => ⟨S1x1x4096, .i32⟩
  | .local _ .vmem, ⟨8, _⟩ => ⟨S1x128x4096, .f32⟩
  | .local _ .vmem, ⟨9, _⟩ => ⟨S1x128x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x512x64x64_S16x512x4096 : S16x512x64x64.ShapeCasts S16x512x4096
  shapeCasts_S16x1x64x64_S16x1x4096 : S16x1x64x64.ShapeCasts S16x1x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  reduces_S1x4096_S1 : S1x4096.Reduces [1] S1
  shapeCasts_S1_S1x1 : S1.ShapeCasts S1x1
  broadcasts_S1x4096_S128x4096 : S1x4096.Broadcasts S128x4096
  reduces_S128x4096_S128 : S128x4096.Reduces [1] S128
  shapeCasts_S128_S128x1 : S128.ShapeCasts S128x1
  broadcasts_S1x1_S128x1 : S1x1.Broadcasts S128x1
  broadcasts_S128x1_S128x4096 : S128x1.Broadcasts S128x4096
  shapeCasts_S128x4096_S1x128x4096 : S128x4096.ShapeCasts S1x128x4096
  shapeCasts_S16x512x4096_S16x512x64x64 : S16x512x4096.ShapeCasts S16x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x512x4096.size a
  hwx0_0 : ∀ i : grid0.Coords, EltTy.bits .f32 = 32 ∨ (Rect.block (s := S16x512x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S16x512x4096.size a
  hwx0_1 : ∀ i : grid0.Coords, EltTy.bits .f32 = 32 ∨ (Rect.block (s := S16x512x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .i32 = 32 ∨ (Rect.block (s := S16x1x4096) S1x1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .i32 = 32 ∨ (Rect.block (s := S16x1x4096) S1x1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S16x512x4096.size a
  hwx0_4 : ∀ i : grid0.Coords, EltTy.bits .f32 = 32 ∨ (Rect.block (s := S16x512x4096) S1x128x4096.size (cc0_transform_4 i) (hinb0_4 i)).WholeWords (EltTy.packing .f32)

variable [Facts₀]

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x1x64x64 : Shape := ⟨4, ![16, 1, 64, 64]⟩
abbrev S_ : Shape := ⟨0, ![]⟩
abbrev S16x1 : Shape := ⟨2, ![16, 1]⟩
abbrev S16x1x1x1 : Shape := ⟨4, ![16, 1, 1, 1]⟩
abbrev S16x512 : Shape := ⟨2, ![16, 512]⟩
abbrev S16x512x1x1 : Shape := ⟨4, ![16, 512, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x1x64x64, .i32⟩
  | .hbm, ⟨3, _⟩ => ⟨S16x1x64x64, .i32⟩
  | .hbm, ⟨4, _⟩ => ⟨S16x1x64x64, .f32⟩
  | .hbm, ⟨5, _⟩ => ⟨S16x1x64x64, .f32⟩
  | .hbm, ⟨6, _⟩ => ⟨S_, .f32⟩
  | .hbm, ⟨7, _⟩ => ⟨S16x1, .f32⟩
  | .hbm, ⟨8, _⟩ => ⟨S16x1x1x1, .f32⟩
  | .hbm, ⟨9, _⟩ => ⟨S16x512x64x64, .f32⟩
  | .hbm, ⟨10, _⟩ => ⟨S16x512x64x64, .f32⟩
  | .hbm, ⟨11, _⟩ => ⟨S_, .f32⟩
  | .hbm, ⟨12, _⟩ => ⟨S16x512, .f32⟩
  | .hbm, ⟨13, _⟩ => ⟨S16x512x1x1, .f32⟩
  | .hbm, ⟨14, _⟩ => ⟨S16x512x1x1, .f32⟩
  | .hbm, ⟨15, _⟩ => ⟨S16x512x1x1, .f32⟩
  | .hbm, ⟨16, _⟩ => ⟨S16x512x64x64, .f32⟩
  | .hbm, ⟨17, _⟩ => ⟨S16x512x64x64, .f32⟩
  | .hbm, ⟨18, _⟩ => ⟨S16x512x64x64, .f32⟩
  | .hbm, ⟨19, _⟩ => ⟨S16x512x64x64, .f32⟩
  | .hbm, ⟨20, _⟩ => ⟨S16x512x64x64, .f32⟩
  | .hbm, ⟨21, _⟩ => ⟨S_, .f32⟩
  | .hbm, ⟨22, _⟩ => ⟨S16x512, .f32⟩
  | .hbm, ⟨23, _⟩ => ⟨S16x512x1x1, .f32⟩
  | .hbm, ⟨24, _⟩ => ⟨S_, .f32⟩
  | .hbm, ⟨25, _⟩ => ⟨S16x1x1x1, .f32⟩
  | .hbm, ⟨26, _⟩ => ⟨S16x1x1x1, .f32⟩
  | .hbm, ⟨27, _⟩ => ⟨S16x512x1x1, .f32⟩
  | .hbm, ⟨28, _⟩ => ⟨S16x512x1x1, .f32⟩
  | .hbm, ⟨29, _⟩ => ⟨S_, .f32⟩
  | .hbm, ⟨30, _⟩ => ⟨S16x512x1x1, .f32⟩
  | .hbm, ⟨31, _⟩ => ⟨S16x512x1x1, .f32⟩
  | .hbm, ⟨32, _⟩ => ⟨S16x512x1x1, .f32⟩
  | .hbm, ⟨33, _⟩ => ⟨S_, .f32⟩
  | .hbm, ⟨34, _⟩ => ⟨S16x1, .f32⟩
  | .hbm, ⟨35, _⟩ => ⟨S16x1x1x1, .f32⟩
  | .hbm, ⟨36, _⟩ => ⟨S16x512x64x64, .f32⟩
  | .hbm, ⟨37, _⟩ => ⟨S16x512x64x64, .f32⟩
  | .hbm, ⟨38, _⟩ => ⟨S_, .f32⟩
  | .hbm, ⟨39, _⟩ => ⟨S16x512, .f32⟩
  | .hbm, ⟨40, _⟩ => ⟨S16x512x1x1, .f32⟩
  | .hbm, ⟨41, _⟩ => ⟨S16x512x1x1, .f32⟩
  | .hbm, ⟨42, _⟩ => ⟨S16x512x1x1, .f32⟩
  | .hbm, ⟨43, _⟩ => ⟨S16x512x64x64, .f32⟩
  | .hbm, ⟨44, _⟩ => ⟨S16x512x64x64, .f32⟩
  | .hbm, ⟨45, _⟩ => ⟨S16x512x64x64, .f32⟩
  | .hbm, ⟨46, _⟩ => ⟨S16x512x64x64, .f32⟩
  | .hbm, ⟨47, _⟩ => ⟨S16x512x64x64, .f32⟩
  | .hbm, ⟨48, _⟩ => ⟨S_, .f32⟩
  | .hbm, ⟨49, _⟩ => ⟨S16x512, .f32⟩
  | .hbm, ⟨50, _⟩ => ⟨S16x512x1x1, .f32⟩
  | .hbm, ⟨51, _⟩ => ⟨S_, .f32⟩
  | .hbm, ⟨52, _⟩ => ⟨S16x1x1x1, .f32⟩
  | .hbm, ⟨53, _⟩ => ⟨S16x1x1x1, .f32⟩
  | .hbm, ⟨54, _⟩ => ⟨S16x512x1x1, .f32⟩
  | .hbm, ⟨55, _⟩ => ⟨S16x512x1x1, .f32⟩
  | .hbm, ⟨56, _⟩ => ⟨S_, .f32⟩
  | .hbm, ⟨57, _⟩ => ⟨S16x512x1x1, .f32⟩
  | .hbm, ⟨58, _⟩ => ⟨S16x512x1x1, .f32⟩
  | .hbm, ⟨59, _⟩ => ⟨S16x512x1x1, .f32⟩
  | .hbm, ⟨60, _⟩ => ⟨S16x512x64x64, .f32⟩
  | .hbm, ⟨61, _⟩ => ⟨S16x512x64x64, .f32⟩
  | .hbm, ⟨62, _⟩ => ⟨S16x512x64x64, .f32⟩
  | .hbm, ⟨63, _⟩ => ⟨S16x512x64x64, .f32⟩
  | .hbm, ⟨64, _⟩ => ⟨S16x512x64x64, .f32⟩
  | .hbm, ⟨65, _⟩ => ⟨S16x512x64x64, .f32⟩
  | .hbm, ⟨66, _⟩ => ⟨S16x512x64x64, .f32⟩
  | .hbm, ⟨67, _⟩ => ⟨S16x512x64x64, .f32⟩
  | .hbm, ⟨68, _⟩ => ⟨S_, .f32⟩
  | .hbm, ⟨69, _⟩ => ⟨S16x1x64x64, .f32⟩
  | .hbm, ⟨70, _⟩ => ⟨S16x1x64x64, .f32⟩
  | .hbm, ⟨71, _⟩ => ⟨S16x512x64x64, .f32⟩
  | .hbm, ⟨72, _⟩ => ⟨S16x512x64x64, .f32⟩
  | .hbm, ⟨73, _⟩ => ⟨S16x512x64x64, .f32⟩
  | .hbm, ⟨74, _⟩ => ⟨S16x512x64x64, .f32⟩
  | .hbm, ⟨75, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]

class Facts₀ : Prop where
  reducesTo_S16x1x64x64_S16x1_d2_3 : S16x1x64x64.ReducesTo [2, 3] S16x1
  h_S_ : 0 < S_.numel
  bcast_S16x1_S16x1x1x1_0_1 : S16x1.BroadcastsInDim S16x1x1x1 (![0, 1] : Fin 2 → Fin S16x1x1x1.rank)
  bcast_S16x1x64x64_S16x512x64x64_0_1_2_3 : S16x1x64x64.BroadcastsInDim S16x512x64x64 (![0, 1, 2, 3] : Fin 4 → Fin S16x512x64x64.rank)
  reducesTo_S16x512x64x64_S16x512_d2_3 : S16x512x64x64.ReducesTo [2, 3] S16x512
  bcast_S16x512_S16x512x1x1_0_1 : S16x512.BroadcastsInDim S16x512x1x1 (![0, 1] : Fin 2 → Fin S16x512x1x1.rank)
  bcast_S16x1x1x1_S16x512x1x1_0_1_2_3 : S16x1x1x1.BroadcastsInDim S16x512x1x1 (![0, 1, 2, 3] : Fin 4 → Fin S16x512x1x1.rank)
  bcast_S16x512x1x1_S16x512x64x64_0_1_2_3 : S16x512x1x1.BroadcastsInDim S16x512x64x64 (![0, 1, 2, 3] : Fin 4 → Fin S16x512x64x64.rank)
  bcast_S_S16x1x1x1 : S_.BroadcastsInDim S16x1x1x1 (![] : Fin 0 → Fin S16x1x1x1.rank)
  bcast_S_S16x512x1x1 : S_.BroadcastsInDim S16x512x1x1 (![] : Fin 0 → Fin S16x512x1x1.rank)
  bcast_S_S16x1x64x64 : S_.BroadcastsInDim S16x1x64x64 (![] : Fin 0 → Fin S16x1x64x64.rank)

variable [Facts₀]

class Facts : Prop extends Facts₀ where

variable [Facts]
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«108671_j71227737637495_1_alg».proof.Proof.LibFoldSum
import proofs.«108671_j71227737637495_1_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.LibMaskedVar.lean ====
/-
  Masked adaptive instance normalisation of one channel, on the extended reals: the specification in its one-pass
  and two-pass spellings, and the law that joins them.

  A channel is a row of `n` pixels `x`; a mask `m` over the same pixels weighs them.  The masked count is
  `∑ m`, the masked mean `μ = (∑ x·m) / ∑ m`.  The unbiased masked variance has two spellings: in one pass,
  `(∑ x²·m − (∑ m)·μ²) / (∑ m − 1)` (`varOne`), and in two passes, `(∑ m·(x − μ)²) / (∑ m − 1)` (`varTwo`).  The
  normalised content row, re-scaled by the style row's deviation and shifted by its mean, is blended with the
  content row by the mask: `x·(1 − m) + (σ_y · ((x − μ_x) / σ_x) + μ_y)·m` with `σ = √(variance + ε)`
  (`blend`, `outOne`, `outTwo`).  The quotient and the square root are the exact float model's; the literals
  `1` and `ε` stay parameters, so no bit pattern is evaluated.

  THE LAW (`varOne_eq_varTwo`, `outTwo_eq_outOne`): on a row of real numbers with a mask of zeros and ones the two
  variances, hence the two results, agree.  Both variances are the quotient of a numerator by the same `∑ m − 1`,
  so it is enough that the numerators agree: `∑ x²·m − (∑ m)·μ² = ∑ m·(x − μ)²`.  When the mask is zero everywhere
  both sides are zero whatever `μ` is (it is the quotient `0 / 0`), a zero factor annihilating every extended
  real.  Otherwise `∑ m` is a nonzero real, the mean is a real number, every term is the coercion of a real
  expression, and over the reals the identity follows from `∑ x·m = μ·∑ m`.  General in `n`.
-/
import Idealize.ShloMosaic.PureOps.Ideal
import proofs.«108671_j71227737637495_1_alg».proof.Proof.LibGcnStats
import proofs.«108671_j71227737637495_1_alg».proof.Proof.LibMeanAffine

noncomputable section

open scoped BigOperators

namespace Cert.Adain

open Idealize.ShloMosaic Cert.GcnStats

variable {n : ℕ}

/-- The masked count. -/
def cnt (m : Fin n → EReal) : EReal := ∑ k, m k

/-- The masked mean. -/
def mean (x m : Fin n → EReal) : EReal := Ideal.div (∑ k, x k * m k) (cnt m)

/-- The unbiased masked variance in one pass: from the masked sum of squares. -/
def varOne (one : EReal) (x m : Fin n → EReal) : EReal :=
  Ideal.div ((∑ k, (x k * x k) * m k) - cnt m * (mean x m * mean x m)) (cnt m - one)

/-- The unbiased masked variance in two passes: from the masked squared deviations. -/
def varTwo (one : EReal) (x m : Fin n → EReal) : EReal :=
  Ideal.div (∑ k, m k * ((x k - mean x m) * (x k - mean x m))) (cnt m - one)

/-- The blend at pixel `p`, from the two variances. -/
def blend (one eps vx vy : EReal) (x mx y my : Fin n → EReal) (p : Fin n) : EReal :=
  x p * (one - mx p)
    + (Ideal.sqrt (vy + eps) * Ideal.div (x p - mean x mx) (Ideal.sqrt (vx + eps)) + mean y my) * mx p

/-- The result with one-pass variances. -/
def outOne (one eps : EReal) (x mx y my : Fin n → EReal) (p : Fin n) : EReal :=
  blend one eps (varOne one x mx) (varOne one y my) x mx y my p

/-- The result with two-pass variances. -/
def outTwo (one eps : EReal) (x mx y my : Fin n → EReal) (p : Fin n) : EReal :=
  blend one eps (varTwo one x mx) (varTwo one y my) x mx y my p

/-! ## The law -/

/-- Over the reals, with `∑ m ≠ 0` and `μ = (∑ x·m)·(1/∑ m)`: `∑ x²·m − (∑ m)·μ² = ∑ m·(x − μ)²`. -/
theorem real_masked_var (x m : Fin n → ℝ) (hc : (∑ k, m k) ≠ 0) (μ : ℝ)
    (hμ : μ = (∑ k, x k * m k) * (1 / ∑ k, m k)) :
    (∑ k, (x k * x k) * m k) - (∑ k, m k) * (μ * μ) = ∑ k, m k * ((x k - μ) * (x k - μ)) := by
  have hs : ∑ k, x k * m k = (∑ k, m k) * μ := by rw [hμ]; field_simp
  have h : ∀ k, m k * ((x k - μ) * (x k - μ)) = (x k * x k) * m k - 2 * μ * (x k * m k) + μ * μ * m k :=
    fun k => by ring
  simp only [h, Finset.sum_add_distrib, Finset.sum_sub_distrib, ← Finset.mul_sum]
  rw [hs]
  ring

/-- The numerators of the two variances agree on a real row with a mask of zeros and ones. -/
theorem var_num_eq (x m : Fin n → EReal) (hx : ∀ k, IsReal (x k)) (hm : ∀ k, m k = 0 ∨ m k = 1) :
    (∑ k, (x k * x k) * m k) - cnt m * (mean x m * mean x m)
      = ∑ k, m k * ((x k - mean x m) * (x k - mean x m)) := by
  choose xr hxr using hx
  have hmr : ∀ k, ∃ r : ℝ, m k = (r : EReal) ∧ 0 ≤ r := by
    intro k
    rcases hm k with h | h
    · exact ⟨0, by rw [h, EReal.coe_zero], le_refl _⟩
    · exact ⟨1, by rw [h, EReal.coe_one], zero_le_one⟩
  choose mr hmr hmr0 using hmr
  by_cases hc : (∑ k, mr k) = 0
  · -- the mask vanishes everywhere
    have hz : ∀ k, mr k = 0 := fun k =>
      (Finset.sum_eq_zero_iff_of_nonneg (fun i _ => hmr0 i)).mp hc k (Finset.mem_univ k)
    have hm0 : ∀ k, m k = 0 := fun k => by rw [hmr k, hz k, EReal.coe_zero]
    have hcnt : cnt m = 0 := by
      unfold cnt
      exact Finset.sum_eq_zero fun k _ => hm0 k
    have hL : (∑ k, (x k * x k) * m k) = 0 := Finset.sum_eq_zero fun k _ => by rw [hm0 k, mul_zero]
    have hR : (∑ k, m k * ((x k - mean x m) * (x k - mean x m))) = 0 :=
      Finset.sum_eq_zero fun k _ => by rw [hm0 k, zero_mul]
    rw [hL, hR, hcnt, zero_mul, sub_zero]
  · -- the count is a nonzero real, the mean a real number
    have hcnt : cnt m = ((∑ k, mr k : ℝ) : EReal) := by
      unfold cnt
      rw [Cert.MeanAffine.coe_sum]
      exact Finset.sum_congr rfl fun k _ => hmr k
    have hmean : mean x m = (((∑ k, xr k * mr k) * (1 / ∑ k, mr k) : ℝ) : EReal) := by
      unfold mean
      rw [hcnt, Ideal.div_coe hc]
      simp only [hxr, hmr, ← EReal.coe_mul, ← Cert.MeanAffine.coe_sum]
    rw [hcnt, hmean]
    simp only [hxr, hmr, ← EReal.coe_mul, ← EReal.coe_sub, ← Cert.MeanAffine.coe_sum]
    rw [real_masked_var xr mr hc _ rfl]

/-- The one-pass masked variance is the two-pass masked variance on a real row with a mask of zeros and ones. -/
theorem varOne_eq_varTwo (one : EReal) (x m : Fin n → EReal) (hx : ∀ k, Cert.GcnStats.IsReal (x k))
    (hm : ∀ k, m k = 0 ∨ m k = 1) : varOne one x m = varTwo one x m := by
  unfold varOne varTwo
  rw [var_num_eq x m hx hm]

/-- So the two-pass result is the one-pass result on real rows with masks of zeros and ones. -/
theorem outTwo_eq_outOne (one eps : EReal) (x mx y my : Fin n → EReal) (hx : ∀ k, IsReal (x k))
    (hy : ∀ k, IsReal (y k)) (hmx : ∀ k, mx k = 0 ∨ mx k = 1) (hmy : ∀ k, my k = 0 ∨ my k = 1) (p : Fin n) :
    outTwo one eps x mx y my p = outOne one eps x mx y my p := by
  unfold outTwo outOne
  rw [varOne_eq_varTwo one x mx hx hmx, varOne_eq_varTwo one y my hy hmy]

end Cert.Adain

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowsDot.lean ====
/-
  Rows of a block against a row vector, on the vector unit.

  A matrix–vector product written without the matrix unit: a row vector `[1, c]` is broadcast along the `n` rows
  of a block `[n, c]`, multiplied into it entry by entry, each row is summed along its lanes from the zero word,
  and the `n` sums are laid out as a column `[n, 1]`.  On the extended reals entry `(q, 0)` of the result is the
  dot product `∑ k, W (q, k) · x (0, k)` of row `q` of the block with the vector — no finiteness is needed.
  General in the extents `n` and `c`.
-/
import Idealize.ShloMosaic.PureOps.Ideal.Laws
import Idealize.ShloMosaic.Lib.ValueIdx
import Idealize.ShloMosaic.Lib.ValueLayout
import Idealize.ShloMosaic.Lib.Pipeline.Value
import proofs.«108671_j71227737637495_1_alg».proof.Proof.LibRowBlocks

noncomputable section

open scoped BigOperators

namespace Cert.RowsDot

open Idealize.ShloMosaic Idealize.ShloMosaic.ValueIdx

/-- A row `[1, c]` broadcast to `[n, c]` reads, at `(q, d)`, the row at `d`. -/
theorem broadcastTo_row_apply {α : Type} {n c : ℕ} (x : (⟨2, ![1, c]⟩ : Shape).Idx → α)
    (h : (⟨2, ![1, c]⟩ : Shape).Broadcasts ⟨2, ![n, c]⟩) (q : Fin n) (d : Fin c) :
    broadcastTo ⟨2, ![n, c]⟩ x h (ix2 q d) = x (ix2 (0 : Fin 1) d) := by
  refine broadcastTo_apply x h (ix2 q d) (ix2 (0 : Fin 1) d) fun ax => ?_
  match ax with
  | ⟨0, _⟩ => rfl
  | ⟨1, _⟩ =>
    show d.val = if c = 1 then 0 else d.val
    split
    · have := d.isLt; omega
    · rfl

/-- The rows of a block dotted with a row vector, as a column: the vector broadcast along the rows, the entrywise
    product, each row's sum from the zero word, the sums cast to a column — entry `(q, u)` is
    `∑ k, W (q, k) · x (0, k)`. -/
theorem rowsDot_apply {n c : ℕ} (W : FVec Ideal ⟨2, ![n, c]⟩ .f32) (x : FVec Ideal ⟨2, ![1, c]⟩ .f32)
    (hb : (⟨2, ![1, c]⟩ : Shape).Broadcasts ⟨2, ![n, c]⟩)
    (hr : (⟨2, ![n, c]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (q : Fin n) (u : Fin 1) :
    shapeCast ⟨2, ![n, 1]⟩
        (multiReduction .add [1] ⟨1, ![n]⟩ (mulf W (broadcastTo ⟨2, ![n, c]⟩ x hb)) 0x00000000#32 hr hφ hacc) hc (ix2 q u)
      = ∑ k : Fin c, W (ix2 q k) * x (ix2 (0 : Fin 1) k) := by
  refine (Cert.RowBlocks.shapeCast_col_apply _ hc q u).trans ?_
  refine (Cert.RowBlocks.rowSum_apply _ hr hφ hacc q).trans ?_
  refine Finset.sum_congr rfl fun k _ => ?_
  show W (ix2 q k) * broadcastTo ⟨2, ![n, c]⟩ x hb (ix2 q k) = _
  rw [broadcastTo_row_apply]

end Cert.RowsDot

end
-- ==== Proof.LibChannelMajor.lean ====
/-
  Channel-major layouts on the extended reals: arrays whose ROWS are channels and whose COLUMNS are tokens.

  General in extents; read-at-an-index lemmas for the operations a channel-major kernel body is made of:
  `broadcastTo_a1_ab_apply` (a per-channel column [a, 1] broadcast along the tokens of [a, b] reads the column at the
  row), `sumRows_apply` (the vector unit's multi_reduction <add> of an [n, c] array ALONG AXIS 0 from the zero word, at
  column d, is the sum over the n rows — the hypothesis on the accumulator typed as a printed payload carries it),
  `slab_apply` (a block of m rows cut from row o of a rank-2 array, at (j, e), is the array at (o + j, e)),
  `cmpi_apply` and `rsqrt_apply` (an integer comparison and a reciprocal square root are pointwise), and
  `indicator_word` (a signed equality test of two 32-bit words, widened to 32 bits and read as a float, is 1 when they
  are equal and 0 otherwise: an indicator column built as (codes == iota).astype(float)).
  Imports only library modules.
-/
import Idealize.ShloMosaic.PureOps.Ideal.Laws
import Idealize.ShloMosaic.Lib.ValueIdx
import Idealize.ShloMosaic.Lib.ValueLayout
import Idealize.ShloMosaic.Lib.Pipeline.Value

noncomputable section

namespace Cert.ChannelMajor

open Idealize.ShloMosaic Idealize.ShloMosaic.ValueIdx

variable {α : Type}

/-- A column [a, 1] broadcast along the rows of [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [n, c] array along its rows, from the zero word, at column d. -/
theorem sumRows_apply {n c : ℕ} (x : FVec Ideal ⟨2, ![n, c]⟩ .f32) (h : (⟨2, ![n, c]⟩ : Shape).Reduces [0] ⟨1, ![c]⟩)
    (hφ : FKind.Formats .f32) (hacc : (0x00000000#32 : BitVec 32) = FKind.add.neutral .f32 hφ) (d : Fin c) :
    multiReduction .add [0] ⟨1, ![c]⟩ x 0x00000000#32 h hφ hacc (ix1 d) = ∑ k : Fin n, x (ix2 k d) := by
  refine (Ideal.multiReduction_add_single x 0x00000000#32 h hφ hacc (ix1 d)).trans ?_
  refine Finset.sum_congr rfl fun k _ => congrArg x (funext fun ax => Fin.ext ?_)
  match ax with
  | ⟨0, _⟩ => rfl
  | ⟨1, _⟩ => rfl

theorem cmpi_apply {s : Shape} {w : ℕ} (p : CmpIPredicate) (x y : IVec s w) (i : s.Idx) :
    cmpi p x y i = IntOp.cmpi p (x i) (y i) := rfl

/-- A block of m rows of an [n0, n1] array from row o, read at (j, e). -/
theorem slab_apply {n0 n1 m : ℕ} (o : ℕ) (X : (⟨2, ![n0, n1]⟩ : Shape).Idx → α)
    (h : (⟨2, ![n0, n1]⟩ : Shape).Slices ![o, 0] ⟨2, ![m, n1]⟩) (j : Fin m) (e : Fin n1) (hb : o + j.val < n0) :
    extractStridedSlice ⟨2, ![m, n1]⟩ ![o, 0] X h (ix2 j e) = X (ix2 ⟨o + j.val, hb⟩ e) :=
  slice2_axis0_apply o X h j e ⟨o + j.val, hb⟩ rfl

theorem rsqrt_apply {s : Shape} {φ : FTy} (x : FVec Ideal s φ) (i : s.Idx) : rsqrt x i = Ideal.rsqrt (x i) := rfl

/-- The indicator word: a signed equality test, widened and read as a float, is one or zero. -/
theorem indicator_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := beq_eq_false_iff_ne.mpr h
    simp [IntOp.cmpi, FloatOps.sitofp, h, hb]

end Cert.ChannelMajor

end
-- ==== Proof.KernelBlock.lean ====
/-
  One block of the kernel, read at an index.

  At a grid point the kernel holds a block of 128 channels of the content and of the style array, each channel a
  row of 4096 pixels, and the two masks' rows of that batch entry.  Its body computes, for every channel of the
  block, the masked count, mean and one-pass variance of both rows and blends the re-normalised content row with
  the content row by the mask.  Read at channel `r` and pixel `p` the stored block is the specification's
  one-pass result of row `r` of the two blocks and the two mask rows, at pixel `p`.
-/
import proofs.«108671_j71227737637495_1_alg».proof.Proof.Gen.KernelIdeal.Frame
import proofs.«108671_j71227737637495_1_alg».proof.Proof.LibMaskedVar
import proofs.«108671_j71227737637495_1_alg».proof.Proof.LibRowBlocks
import proofs.«108671_j71227737637495_1_alg».proof.Proof.LibRowsDot
import proofs.«108671_j71227737637495_1_alg».proof.Proof.LibChannelMajor
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Adain

/-- Channel `r` of a block of 128 channels, as a row of pixels. -/
def brow (x : Vec Ideal S1x128x4096 .f32) (r : Fin 128) : Fin 4096 → EReal := fun k => x (ix3 (0 : Fin 1) r k)

/-- A mask block as a row of real numbers. -/
def bmask (x : Vec Ideal S1x1x4096 .i32) : Fin 4096 → EReal :=
  fun k => FloatOps.sitofp (F := Ideal) .f32 (x (ix3 (0 : Fin 1) (0 : Fin 1) k))

/-- The literal one. -/
abbrev one : EReal := Ideal.ofBits .f32 0x3F800000#32
/-- The literal added to a variance. -/
abbrev eps : EReal := Ideal.ofBits .f32 0x3727C5AC#32

/-- The block viewed as 128 rows. -/
theorem pay2_apply (x0 : Vec Ideal S1x128x4096 .f32) (r : Fin 128) (k : Fin 4096) :
    k0_pay2 (F := Ideal) x0 (ix2 r k) = brow x0 r k :=
  Cert.RowBlocks.shapeCast_merge_apply x0 _ (0 : Fin 1) r k r (by show r.val = 0 * 128 + r.val; omega)

theorem pay3_apply (x1 : Vec Ideal S1x128x4096 .f32) (r : Fin 128) (k : Fin 4096) :
    k0_pay3 (F := Ideal) x1 (ix2 r k) = brow x1 r k :=
  Cert.RowBlocks.shapeCast_merge_apply x1 _ (0 : Fin 1) r k r (by show r.val = 0 * 128 + r.val; omega)

/-- The mask block viewed as one row of real numbers. -/
theorem pay4_apply (x2 : Vec Ideal S1x1x4096 .i32) (k : Fin 4096) :
    k0_pay4 (F := Ideal) x2 (ix2 (0 : Fin 1) k) = bmask x2 k :=
  congrArg (FloatOps.sitofp (F := Ideal) .f32)
    (Cert.RowBlocks.shapeCast_merge_apply x2 _ (0 : Fin 1) (0 : Fin 1) k (0 : Fin 1) rfl)

theorem pay5_apply (x3 : Vec Ideal S1x1x4096 .i32) (k : Fin 4096) :
    k0_pay5 (F := Ideal) x3 (ix2 (0 : Fin 1) k) = bmask x3 k :=
  congrArg (FloatOps.sitofp (F := Ideal) .f32)
    (Cert.RowBlocks.shapeCast_merge_apply x3 _ (0 : Fin 1) (0 : Fin 1) k (0 : Fin 1) rfl)

/-- The masked count, kept as a one-by-one array. -/
theorem pay6_apply (x2 : Vec Ideal S1x1x4096 .i32) :
    k0_pay6 (F := Ideal) x2 (ix2 (0 : Fin 1) (0 : Fin 1)) = cnt (bmask x2) := by
  unfold k0_pay6
  refine (Cert.RowBlocks.shapeCast_col_apply _ _ (0 : Fin 1) (0 : Fin 1)).trans ?_
  refine (Cert.RowBlocks.rowSum_apply _ _ _ _ (0 : Fin 1)).trans ?_
  exact Finset.sum_congr rfl fun k _ => pay4_apply x2 k

theorem pay7_apply (x3 : Vec Ideal S1x1x4096 .i32) :
    k0_pay7 (F := Ideal) x3 (ix2 (0 : Fin 1) (0 : Fin 1)) = cnt (bmask x3) := by
  unfold k0_pay7
  refine (Cert.RowBlocks.shapeCast_col_apply _ _ (0 : Fin 1) (0 : Fin 1)).trans ?_
  refine (Cert.RowBlocks.rowSum_apply _ _ _ _ (0 : Fin 1)).trans ?_
  exact Finset.sum_congr rfl fun k _ => pay5_apply x3 k

/-- The content rows' masked means, one per channel. -/
theorem pay8_apply (x0 : Vec Ideal S1x128x4096 .f32) (x2 : Vec Ideal S1x1x4096 .i32) (r : Fin 128) :
    k0_pay8 (F := Ideal) x0 x2 (ix2 r (0 : Fin 1)) = mean (brow x0 r) (bmask x2) := by
  unfold k0_pay8 mean
  show Ideal.div _ _ = _
  refine congrArg₂ Ideal.div ?_ ?_
  · refine (Cert.RowsDot.rowsDot_apply (k0_pay2 x0) (k0_pay4 x2) _ _ _ _ _ r (0 : Fin 1)).trans ?_
    exact Finset.sum_congr rfl fun k _ => by rw [pay2_apply, pay4_apply]
  · refine (Cert.RowsDot.broadcastTo_row_apply _ _ r (0 : Fin 1)).trans ?_
    exact pay6_apply x2

/-- The content rows' deviations: the square root of the one-pass variance plus the literal. -/
theorem pay9_apply (x0 : Vec Ideal S1x128x4096 .f32) (x2 : Vec Ideal S1x1x4096 .i32) (r : Fin 128) :
    k0_pay9 (F := Ideal) x0 x2 (ix2 r (0 : Fin 1)) = Ideal.sqrt (varOne one (brow x0 r) (bmask x2) + eps) := by
  unfold k0_pay9 varOne
  show Ideal.sqrt (Ideal.div (_ - _ * (_ * _)) _ + _) = _
  have h22 : shapeCast S128x1 (multiReduction .add [1] S128 (mulf (mulf (k0_pay2 x0) (k0_pay2 x0))
        (broadcastTo S128x4096 (k0_pay4 x2) broadcasts_S1x4096_S128x4096)) 0x00000000#32 reduces_S128x4096_S128 (.inl rfl) rfl)
        shapeCasts_S128_S128x1 (ix2 r (0 : Fin 1)) = ∑ k, (brow x0 r k * brow x0 r k) * bmask x2 k := by
    refine (Cert.RowsDot.rowsDot_apply (mulf (k0_pay2 x0) (k0_pay2 x0)) (k0_pay4 x2) _ _ _ _ _ r (0 : Fin 1)).trans ?_
    refine Finset.sum_congr rfl fun k _ => ?_
    show (k0_pay2 x0 (ix2 r k) * k0_pay2 x0 (ix2 r k)) * k0_pay4 x2 (ix2 (0 : Fin 1) k) = _
    rw [pay2_apply, pay4_apply]
  have h26 : broadcastTo S128x1 (k0_pay6 x2) broadcasts_S1x1_S128x1 (ix2 r (0 : Fin 1)) = cnt (bmask x2) :=
    (Cert.RowsDot.broadcastTo_row_apply _ _ r (0 : Fin 1)).trans (pay6_apply x2)
  have h31 : broadcastTo S128x1 (subf (k0_pay6 x2) (broadcast S1x1 (Scalar.ofBits (F := Ideal) .f32 0x3F800000#32)))
        broadcasts_S1x1_S128x1 (ix2 r (0 : Fin 1)) = cnt (bmask x2) - one :=
    (Cert.RowsDot.broadcastTo_row_apply _ _ r (0 : Fin 1)).trans (congrArg (· - one) (pay6_apply x2))
  rw [h22, h26, h31, pay8_apply]
  rfl

/-- The style rows' masked sums. -/
theorem pay10_apply (x1 : Vec Ideal S1x128x4096 .f32) (x3 : Vec Ideal S1x1x4096 .i32) (r : Fin 128) :
    k0_pay10 (F := Ideal) x1 x3 (ix1 r) = ∑ k, brow x1 r k * bmask x3 k := by
  unfold k0_pay10
  refine (Cert.RowBlocks.rowSum_apply _ _ _ _ r).trans ?_
  refine Finset.sum_congr rfl fun k _ => ?_
  show k0_pay3 x1 (ix2 r k) * broadcastTo S128x4096 (k0_pay5 x3) broadcasts_S1x4096_S128x4096 (ix2 r k) = _
  rw [Cert.RowsDot.broadcastTo_row_apply, pay3_apply, pay5_apply]

theorem sqrt_apply {s : Shape} (a : FVec Ideal s .f32) (i : s.Idx) : sqrt a i = Ideal.sqrt (a i) := rfl

/-- The stored block from the eight values the body's first part hands on, at channel `r` and pixel `p`. -/
theorem pay1_apply (v1 v3 : FVec Ideal S128x4096 .f32) (v6 v9 : FVec Ideal S1x4096 .f32) (v13 : FVec Ideal S1x1 .f32)
    (v24 v35 : FVec Ideal S128x1 .f32) (v38 : FVec Ideal S128 .f32) (r : Fin 128) (p : Fin 4096) :
    k0_pay1 (F := Ideal) v1 v3 v6 v9 v13 v24 v35 v38 (ix3 (0 : Fin 1) r p)
      = v1 (ix2 r p) * (one - v6 (ix2 (0 : Fin 1) p))
        + (Ideal.sqrt (Ideal.div ((∑ k, (v3 (ix2 r k) * v3 (ix2 r k)) * v9 (ix2 (0 : Fin 1) k))
                - v13 (ix2 (0 : Fin 1) (0 : Fin 1))
                  * (Ideal.div (v38 (ix1 r)) (v13 (ix2 (0 : Fin 1) (0 : Fin 1)))
                    * Ideal.div (v38 (ix1 r)) (v13 (ix2 (0 : Fin 1) (0 : Fin 1)))))
              (v13 (ix2 (0 : Fin 1) (0 : Fin 1)) - one) + eps)
            * Ideal.div (v1 (ix2 r p) - v24 (ix2 r (0 : Fin 1))) (v35 (ix2 r (0 : Fin 1)))
          + Ideal.div (v38 (ix1 r)) (v13 (ix2 (0 : Fin 1) (0 : Fin 1)))) * v6 (ix2 (0 : Fin 1) p) := by
  unfold k0_pay1
  refine (Cert.RowBlocks.shapeCast_split_apply _ _ (0 : Fin 1) r p r (by show r.val = 0 * 128 + r.val; omega)).trans ?_
  have hs : multiReduction .add [1] S128 (mulf (mulf v3 v3) (broadcastTo S128x4096 v9 broadcasts_S1x4096_S128x4096))
      0x00000000#32 reduces_S128x4096_S128 (.inl rfl) rfl (ix1 r)
        = ∑ k, (v3 (ix2 r k) * v3 (ix2 r k)) * v9 (ix2 (0 : Fin 1) k) := by
    refine (Cert.RowBlocks.rowSum_apply _ _ _ _ r).trans ?_
    refine Finset.sum_congr rfl fun k _ => ?_
    show (v3 (ix2 r k) * v3 (ix2 r k)) * broadcastTo S128x4096 v9 broadcasts_S1x4096_S128x4096 (ix2 r k) = _
    rw [Cert.RowsDot.broadcastTo_row_apply]
  dsimp only
  simp only [addf_apply, mulf_apply, subf_apply, divf_apply, sqrt_apply, broadcast_apply,
    Cert.RowsDot.broadcastTo_row_apply, Cert.ChannelMajor.broadcastTo_a1_ab_apply,
    Cert.RowBlocks.shapeCast_col_apply]
  rw [hs]
  rfl

/-- THE BLOCK: what the body stores, read at channel `r` and pixel `p`, is the one-pass result of the rows. -/
theorem block_apply (x0 x1 : Vec Ideal S1x128x4096 .f32) (x2 x3 : Vec Ideal S1x1x4096 .i32) (r : Fin 128) (p : Fin 4096) :
    k0_pay1 (F := Ideal) (k0_pay2 x0) (k0_pay3 x1) (k0_pay4 x2) (k0_pay5 x3) (k0_pay7 x3) (k0_pay8 x0 x2) (k0_pay9 x0 x2)
        (k0_pay10 x1 x3) (ix3 (0 : Fin 1) r p)
      = outOne one eps (brow x0 r) (bmask x2) (brow x1 r) (bmask x3) p := by
  rw [pay1_apply, pay2_apply, pay4_apply, pay7_apply, pay8_apply, pay9_apply, pay10_apply]
  have h3 : (∑ k, (k0_pay3 (F := Ideal) x1 (ix2 r k) * k0_pay3 x1 (ix2 r k)) * k0_pay5 x3 (ix2 (0 : Fin 1) k))
      = ∑ k, (brow x1 r k * brow x1 r k) * bmask x3 k :=
    Finset.sum_congr rfl fun k _ => by rw [pay3_apply, pay5_apply]
  rw [h3]
  rfl

end Cert.KernelIdeal.Block

end
-- ==== Proof.Rows.lean ====
/-
  Channels as rows of pixels.

  An image batch `[16, 512, 64, 64]` holds, for batch entry `b` and channel `ch`, a `64 × 64` picture; read
  row-major, the picture is a row of `4096` pixels, pixel `k` sitting at line `k / 64`, column `k % 64`, and
  the pixel at line `h`, column `w` being number `64·h + w`.  A mask batch `[16, 1, 64, 64]` of integers
  gives one such row per batch entry, each integer read as the real number it denotes.
-/
import Idealize.ShloMosaic.PureOps.Ideal
import Idealize.ShloMosaic.Lib.ValueIdx

noncomputable section

namespace Cert.Rows

open Idealize.ShloMosaic Idealize.ShloMosaic.ValueIdx

/-- The line of pixel `k`. -/
def line (k : Fin 4096) : Fin 64 := ⟨k.val / 64, by have := k.isLt; omega⟩
/-- The column of pixel `k`. -/
def col (k : Fin 4096) : Fin 64 := ⟨k.val % 64, by omega⟩
/-- The number of the pixel at line `h`, column `w`. -/
def px (h w : Fin 64) : Fin 4096 := ⟨h.val * 64 + w.val, by have := h.isLt; have := w.isLt; omega⟩

theorem line_px (h w : Fin 64) : line (px h w) = h := Fin.ext (by
  show (h.val * 64 + w.val) / 64 = h.val
  have := w.isLt; omega)
theorem col_px (h w : Fin 64) : col (px h w) = w := Fin.ext (by
  show (h.val * 64 + w.val) % 64 = w.val
  have := w.isLt; omega)
theorem px_line_col (k : Fin 4096) : px (line k) (col k) = k := Fin.ext (by
  show k.val / 64 * 64 + k.val % 64 = k.val
  omega)

/-- Channel `ch` of batch entry `b` as a row of pixels. -/
def row4 (x : (⟨4, ![16, 512, 64, 64]⟩ : Shape).Idx → EReal) (b : Fin 16) (ch : Fin 512) : Fin 4096 → EReal :=
  fun k => x (ix4 b ch (line k) (col k))

/-- The mask of batch entry `b` as a row of real numbers. -/
def mrow4 (x : (⟨4, ![16, 1, 64, 64]⟩ : Shape).Idx → BitVec 32) (b : Fin 16) : Fin 4096 → EReal :=
  fun k => FloatOps.sitofp (F := Ideal) .f32 (x (ix4 b (0 : Fin 1) (line k) (col k)))

end Cert.Rows

end
-- ==== Proof.KernelArray.lean ====
/-
  From the kernel's blocks to its whole result.

  The grid has a point for every batch entry `b` and every group `g` of 128 channels; the point's output block is
  channels `128·g … 128·g + 127` of batch entry `b`, all 4096 pixels, and its input blocks are the same channels
  of the content and style arrays and the two masks' rows of batch entry `b`.  The arrays the kernel reads are
  the arguments with each picture flattened to a row; the result is un-flattened after the kernel.  So the
  program's result at batch entry `b`, channel `ch`, line `h`, column `w` is the one-pass result of the rows of
  `(b, ch)` at pixel `64·h + w`.
-/
import proofs.«108671_j71227737637495_1_alg».proof.Proof.KernelBlock
import proofs.«108671_j71227737637495_1_alg».proof.Proof.Rows
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.Adain Cert.Rows Cert.KernelIdeal.Block
open Idealize.ShloMosaic.Pipeline (Dat)

/-! ## The result as one function of the arguments -/

/-- The one-pass result at batch entry `b`, channel `ch`, pixel `k`. -/
def g3 (a0 a1 : S16x512x64x64.Idx → EReal) (a2 a3 : S16x1x64x64.Idx → BitVec 32) (b : Fin 16) (ch : Fin 512)
    (k : Fin 4096) : EReal :=
  outOne one eps (row4 a0 b ch) (mrow4 a2 b) (row4 a1 b ch) (mrow4 a3 b) k

/-- The kernel's result array, pictures flattened. -/
def G3 (a0 a1 : S16x512x64x64.Idx → EReal) (a2 a3 : S16x1x64x64.Idx → BitVec 32) : S16x512x4096.Idx → EReal :=
  fun i => g3 a0 a1 a2 a3 (i 0) (i 1) (i 2)

/-- The program's result array. -/
def G4 (a0 a1 : S16x512x64x64.Idx → EReal) (a2 a3 : S16x1x64x64.Idx → BitVec 32) : S16x512x64x64.Idx → EReal :=
  fun i => g3 a0 a1 a2 a3 (i 0) (i 1) (px (i 2) (i 3))

/-! ## Flattening a picture, and back -/

theorem flatten_apply {α : Type} {C : ℕ} (x : (⟨4, ![16, C, 64, 64]⟩ : Shape).Idx → α)
    (h : (⟨4, ![16, C, 64, 64]⟩ : Shape).ShapeCasts ⟨3, ![16, C, 4096]⟩) (b : Fin 16) (ch : Fin C) (k : Fin 4096) :
    shapeCast ⟨3, ![16, C, 4096]⟩ x h (ix3 b ch k) = x (ix4 b ch (line k) (col k)) :=
  shapeCast_apply x h _ _ (by
    rw [Shape.rowMajor_val_four, Shape.rowMajor_val_three]
    show ((b.val * C + ch.val) * 64 + k.val / 64) * 64 + k.val % 64 = (b.val * C + ch.val) * 4096 + k.val
    omega)

theorem unflatten_apply {α : Type} {C : ℕ} (y : (⟨3, ![16, C, 4096]⟩ : Shape).Idx → α)
    (h : (⟨3, ![16, C, 4096]⟩ : Shape).ShapeCasts ⟨4, ![16, C, 64, 64]⟩) (b : Fin 16) (ch : Fin C) (hh w : Fin 64) :
    shapeCast ⟨4, ![16, C, 64, 64]⟩ y h (ix4 b ch hh w) = y (ix3 b ch (px hh w)) :=
  shapeCast_apply y h _ _ (by
    rw [Shape.rowMajor_val_four, Shape.rowMajor_val_three]
    show (b.val * C + ch.val) * 4096 + (hh.val * 64 + w.val) = ((b.val * C + ch.val) * 64 + hh.val) * 64 + w.val
    omega)

variable (m : (ℓ : Loc nD τ sig) → Buf (Elt Ideal) ℓ) (ρ : Dev nD → PrngReg)

/-- The four argument arrays of core `c`. -/
abbrev A0 (c : Dev nD) : S16x512x64x64.Idx → EReal := m ((c : Thread nD τ).loc main_arg0)
abbrev A1 (c : Dev nD) : S16x512x64x64.Idx → EReal := m ((c : Thread nD τ).loc main_arg1)
abbrev A2 (c : Dev nD) : S16x1x64x64.Idx → BitVec 32 := m ((c : Thread nD τ).loc main_arg2)
abbrev A3 (c : Dev nD) : S16x1x64x64.Idx → BitVec 32 := m ((c : Thread nD τ).loc main_arg3)

/-! ## The arrays the kernel reads -/

theorem V_v0 (c : Dev nD) : (V m c main_v0 : S16x512x4096.Idx → EReal)
    = shapeCast S16x512x4096 (A0 m c) shapeCasts_S16x512x64x64_S16x512x4096 := by
  show StableHlo.after hostOps0 (fun b => m (c, b)) (Proc.devRef .tc main_v0) = _
  after_results
  rfl

theorem V_v1 (c : Dev nD) : (V m c main_v1 : S16x512x4096.Idx → EReal)
    = shapeCast S16x512x4096 (A1 m c) shapeCasts_S16x512x64x64_S16x512x4096 := by
  show StableHlo.after hostOps0 (fun b => m (c, b)) (Proc.devRef .tc main_v1) = _
  after_results
  rfl

theorem V_v2 (c : Dev nD) : (V m c main_v2 : S16x1x4096.Idx → BitVec 32)
    = shapeCast S16x1x4096 (A2 m c) shapeCasts_S16x1x64x64_S16x1x4096 := by
  show StableHlo.after hostOps0 (fun b => m (c, b)) (Proc.devRef .tc main_v2) = _
  after_results
  rfl

theorem V_v3 (c : Dev nD) : (V m c main_v3 : S16x1x4096.Idx → BitVec 32)
    = shapeCast S16x1x4096 (A3 m c) shapeCasts_S16x1x64x64_S16x1x4096 := by
  show StableHlo.after hostOps0 (fun b => m (c, b)) (Proc.devRef .tc main_v3) = _
  after_results
  rfl

/-! ## The grid: which block each point holds -/

theorem hz : (![0, 0, 0] : Fin 3 → Nat) = fun _ => 0 := funext fun a => by fin_cases a <;> rfl

/-- The printed index maps, decided over the 64 points: every input block sits at the output block's batch entry,
    the content and style blocks at its channel group too, and every pixel axis is whole. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_2.index t (0 : Fin 3) = win0_4.index t (0 : Fin 3) ∧ win0_2.index t (1 : Fin 3) = 0
    ∧ win0_2.index t (2 : Fin 3) = 0
    ∧ win0_3.index t (0 : Fin 3) = win0_4.index t (0 : Fin 3) ∧ win0_3.index t (1 : Fin 3) = 0
    ∧ win0_3.index t (2 : Fin 3) = 0
    ∧ win0_4.index t (2 : Fin 3) = 0 ∧ win0_4.index t (0 : Fin 3) < 16 ∧ win0_4.index t (1 : Fin 3) < 4 :=
  (by decide +kernel : ∀ t : Fin grid0.N, _)

/-- Every (batch entry, channel group) is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The batch entry of point `t`. -/
def tb (t : Fin cfg0.N) : Fin 16 := ⟨win0_4.index t (0 : Fin 3), (idx_facts t).2.2.2.2.2.2.2.2.2.2.2.2.2.1⟩
/-- Channel `r` of point `t`'s block, in the array. -/
def tch (t : Fin cfg0.N) (r : Fin 128) : Fin 512 :=
  ⟨win0_4.index t (1 : Fin 3) * 128 + r.val, by have := (idx_facts t).2.2.2.2.2.2.2.2.2.2.2.2.2.2; have := r.isLt; omega⟩

/-! ## The input blocks, read -/

theorem blk0 (c : Dev nD) (t : Fin cfg0.N) (r : Fin 128) : brow (iblk m c 0 t) r = row4 (A0 m c) (tb t) (tch t r) := by
  funext k
  show V m c main_v0 (((cfg0.win 0).blk t).view.emb (ix3 (0 : Fin 1) r k)) = _
  obtain ⟨e0, e1, e2, -⟩ := idx_facts t
  have he : ((cfg0.win 0).blk t).view.emb (ix3 (0 : Fin 1) r k) = ix3 (tb t) (tch t r) k := by
    funext a; apply Fin.ext
    match a with
    | ⟨0, _⟩ => show win0_0.index t (0 : Fin 3) * 1 + 1 * 0 = win0_4.index t (0 : Fin 3); omega
    | ⟨1, _⟩ => show win0_0.index t (1 : Fin 3) * 128 + 1 * r.val = win0_4.index t (1 : Fin 3) * 128 + r.val; omega
    | ⟨2, _⟩ => show win0_0.index t (2 : Fin 3) * 4096 + 1 * k.val = k.val; omega
  rw [he, V_v0, flatten_apply]
  rfl

theorem blk1 (c : Dev nD) (t : Fin cfg0.N) (r : Fin 128) : brow (iblk m c 1 t) r = row4 (A1 m c) (tb t) (tch t r) := by
  funext k
  show V m c main_v1 (((cfg0.win 1).blk t).view.emb (ix3 (0 : Fin 1) r k)) = _
  obtain ⟨-, -, -, e0, e1, e2, -⟩ := idx_facts t
  have he : ((cfg0.win 1).blk t).view.emb (ix3 (0 : Fin 1) r k) = ix3 (tb t) (tch t r) k := by
    funext a; apply Fin.ext
    match a with
    | ⟨0, _⟩ => show win0_1.index t (0 : Fin 3) * 1 + 1 * 0 = win0_4.index t (0 : Fin 3); omega
    | ⟨1, _⟩ => show win0_1.index t (1 : Fin 3) * 128 + 1 * r.val = win0_4.index t (1 : Fin 3) * 128 + r.val; omega
    | ⟨2, _⟩ => show win0_1.index t (2 : Fin 3) * 4096 + 1 * k.val = k.val; omega
  rw [he, V_v1, flatten_apply]
  rfl

theorem blk2 (c : Dev nD) (t : Fin cfg0.N) : bmask (iblk m c 2 t) = mrow4 (A2 m c) (tb t) := by
  funext k
  show FloatOps.sitofp (F := Ideal) .f32 (V m c main_v2 (((cfg0.win 2).blk t).view.emb (ix3 (0 : Fin 1) (0 : Fin 1) k))) = _
  obtain ⟨-, -, -, -, -, -, e0, e1, e2, -⟩ := idx_facts t
  have he : ((cfg0.win 2).blk t).view.emb (ix3 (0 : Fin 1) (0 : Fin 1) k) = ix3 (tb t) (0 : Fin 1) k := by
    funext a; apply Fin.ext
    match a with
    | ⟨0, _⟩ => show win0_2.index t (0 : Fin 3) * 1 + 1 * 0 = win0_4.index t (0 : Fin 3); omega
    | ⟨1, _⟩ => show win0_2.index t (1 : Fin 3) * 1 + 1 * 0 = 0; omega
    | ⟨2, _⟩ => show win0_2.index t (2 : Fin 3) * 4096 + 1 * k.val = k.val; omega
  rw [he, V_v2, flatten_apply]
  rfl

theorem blk3 (c : Dev nD) (t : Fin cfg0.N) : bmask (iblk m c 3 t) = mrow4 (A3 m c) (tb t) := by
  funext k
  show FloatOps.sitofp (F := Ideal) .f32 (V m c main_v3 (((cfg0.win 3).blk t).view.emb (ix3 (0 : Fin 1) (0 : Fin 1) k))) = _
  obtain ⟨-, -, -, -, -, -, -, -, -, e0, e1, e2, -⟩ := idx_facts t
  have he : ((cfg0.win 3).blk t).view.emb (ix3 (0 : Fin 1) (0 : Fin 1) k) = ix3 (tb t) (0 : Fin 1) k := by
    funext a; apply Fin.ext
    match a with
    | ⟨0, _⟩ => show win0_3.index t (0 : Fin 3) * 1 + 1 * 0 = win0_4.index t (0 : Fin 3); omega
    | ⟨1, _⟩ => show win0_3.index t (1 : Fin 3) * 1 + 1 * 0 = 0; omega
    | ⟨2, _⟩ => show win0_3.index t (2 : Fin 3) * 4096 + 1 * k.val = k.val; omega
  rw [he, V_v3, flatten_apply]
  rfl

/-! ## What a point writes back, the cover, the array -/

/-- WHAT POINT `t` WRITES BACK is block `t` of `G3` of the arguments. -/
theorem flushed_eq (c : Dev nD) (t : Fin cfg0.N) :
    (dats m 0 c).flushed 4 t
      = ((cfg0.win 4).blk t).view.read (Elt Ideal) (G3 (A0 m c) (A1 m c) (A2 m c) (A3 m c)) := by
  show (cfg0.win 4).cut (grid0.coords t) ((dats m 0 c).after 4 t) = _
  rw [after0_4]
  unfold out0_4
  rw [View.canon_unit_zero hz]
  simp only [View.ld_unit_zero (S := S1x128x4096) hz, View.ld_unit_zero (S := S1x1x4096) hz]
  funext j
  obtain ⟨u, r, p, rfl⟩ : ∃ (u : Fin 1) (r : Fin 128) (p : Fin 4096), j = ix3 u r p := ⟨j 0, j 1, j 2, eq_ix3 j⟩
  obtain rfl : u = 0 := Subsingleton.elim _ _
  show k0_pay1 (k0_pay2 (iblk m c 0 t)) (k0_pay3 (iblk m c 1 t)) (k0_pay4 (iblk m c 2 t)) (k0_pay5 (iblk m c 3 t))
      (k0_pay7 (iblk m c 3 t)) (k0_pay8 (iblk m c 0 t) (iblk m c 2 t)) (k0_pay9 (iblk m c 0 t) (iblk m c 2 t))
      (k0_pay10 (iblk m c 1 t) (iblk m c 3 t)) (ix3 (0 : Fin 1) r p)
    = G3 (A0 m c) (A1 m c) (A2 m c) (A3 m c) (((cfg0.win 4).blk t).view.emb (ix3 (0 : Fin 1) r p))
  refine (block_apply (iblk m c 0 t) (iblk m c 1 t) (iblk m c 2 t) (iblk m c 3 t) r p).trans ?_
  obtain ⟨-, -, -, -, -, -, -, -, -, -, -, -, e2, -⟩ := idx_facts t
  have he : ((cfg0.win 4).blk t).view.emb (ix3 (0 : Fin 1) r p) = ix3 (tb t) (tch t r) p := by
    funext a; apply Fin.ext
    match a with
    | ⟨0, _⟩ => show win0_4.index t (0 : Fin 3) * 1 + 1 * 0 = win0_4.index t (0 : Fin 3); omega
    | ⟨1, _⟩ => show win0_4.index t (1 : Fin 3) * 128 + 1 * r.val = win0_4.index t (1 : Fin 3) * 128 + r.val; omega
    | ⟨2, _⟩ => show win0_4.index t (2 : Fin 3) * 4096 + 1 * p.val = p.val; omega
  rw [he, blk0, blk1, blk2, blk3]
  rfl

/-- An index of the array is in point `t`'s block iff each coordinate is in the block's range on its axis. -/
theorem mem_blk (t : Fin cfg0.N) (i : S16x512x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v4).slice (win0_4.rect t)).set ↔ _
  rw [View.set_slice_whole, Rect.mem_set_unit]
  exact Iff.rfl

/-- The blocks cover the array. -/
theorem cover (i : S16x512x4096.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

/-- THE KERNEL'S ARRAY after the region: `G3` of the arguments. -/
theorem final (c : Dev nD) : (dats m 0 c).arrAt 4 cfg0.N = G3 (A0 m c) (A1 m c) (A2 m c) (A3 m c) :=
  (dats m 0 c).arrAt_eq_of_cover 4 (G3 (A0 m c) (A1 m c) (A2 m c) (A3 m c)) (fun t _ => flushed_eq m c t) cover

/-! ## After the region: the pictures un-flattened -/

theorem tail_v5 (c : Dev nD) : (Pipeline.afterTail₀ cfgs (dats m) 0 (V0 m) [hostOps1] c main_v5 : S16x512x64x64.Idx → EReal)
    = G4 (A0 m c) (A1 m c) (A2 m c) (A3 m c) := by
  unfold Pipeline.afterTail₀
  show StableHlo.after hostOps1 _ (Proc.devRef .tc main_v5) = _
  after_results
  rw [(Pipeline.withArrays_arr spec0 launch0.win.arr_inj c _ _ 4).trans (final m c)]
  funext i
  obtain ⟨b, ch, hh, w, rfl⟩ : ∃ (b : Fin 16) (ch : Fin 512) (hh w : Fin 64), i = ix4 b ch hh w :=
    ⟨i 0, i 1, i 2, i 3, eq_ix4 i⟩
  exact unflatten_apply _ _ b ch hh w

/-- THE RUN: every weakly fair execution ends with the result at `G4` of the arguments, the arguments unchanged. -/
theorem run : θ_run defs (onTc (τ := τ) (main (F := Ideal))) ⟨m, fun _ => 0, ρ⟩ fun r => ∀ c : Dev nD,
      r.2.mem ((c.tc : Thread nD τ).loc main_v5) = G4 (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Arr

end
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.RefValue.lean ====
/-
  The reference program's result, read at one entry, as the two-pass specification on rows of pixels.

  The program sums over the two picture axes of a `[16, C, 64, 64]` array into `[16, C]`; at batch entry `b` and
  channel `ch` that sum is the sum over the `4096` pixels of the row, pixel `k` sitting at line `k / 64`, column
  `k % 64`.  With the six sums read so, every later operation acts entry by entry or re-reads an entry of a
  smaller array, and the chain of operations is, term for term, the specification: the masked count, the masked
  mean, the masked sum of squared deviations, its quotient by the count less one, the square root after adding
  `ε`, and the blend by the mask.  The style row's statistics are computed by the same operations as the content
  row's, on the other pair of arguments.
-/
import proofs.«108671_j71227737637495_1_alg».proof.Proof.Gen.ReferenceIdeal.Read
import proofs.«108671_j71227737637495_1_alg».proof.Proof.Rows
import proofs.«108671_j71227737637495_1_alg».proof.Proof.LibMaskedVar
import proofs.«108671_j71227737637495_1_alg».proof.Proof.LibPoolFold

noncomputable section

open scoped BigOperators

namespace Cert.RefValue

open Cert.ReferenceIdeal Cert.ReferenceIdeal.Gen Cert.ReferenceIdeal.Read Cert.Rows Cert.Adain
  Idealize.ShloMosaic Idealize.ShloMosaic.ValueIdx

/-! ### A sum over the two picture axes is a sum over the row of pixels -/

/-- The host's sum over axes 2 and 3 of a `[16, 512, 64, 64]` array from the zero pattern, at `(b, ch)`: the sum
    over the `4096` pixels of that channel. -/
theorem sum23 (X : FVec Ideal ⟨4, ![16, 512, 64, 64]⟩ .f32)
    (hr : (⟨4, ![16, 512, 64, 64]⟩ : Shape).ReducesTo [2, 3] ⟨2, ![16, 512]⟩)
    (hu : 0 < (⟨0, ![]⟩ : Shape).numel) (b : Fin 16) (ch : Fin 512) :
    Host.reduceAdd X (constant (F := Ideal) ⟨0, ![]⟩ .f32 0x00000000#32) hr hu (ix2 b ch)
      = ∑ k : Fin 4096, X (ix4 b ch (line k) (col k)) := by
  have key := Cert.PoolFold.hostReduceAdd_eq_sum X (constant (F := Ideal) ⟨0, ![]⟩ .f32 0x00000000#32) hr hu
    (ix2 b ch) (fun k : Fin 4096 => ix4 b ch (line k) (col k)) ?inj ?drop ?surj
  · refine key.trans ?_
    show Ideal.ofBits .f32 0x00000000#32 + _ = _
    rw [Ideal.ofBits_zero_f32, zero_add]
  case inj =>
    intro k k' hk
    have h2 : line k = line k' := congrFun hk (2 : Fin 4)
    have h3 : col k = col k' := congrFun hk (3 : Fin 4)
    rw [← px_line_col k, ← px_line_col k', h2, h3]
  case drop =>
    intro k
    funext a
    match a with
    | ⟨0, _⟩ => exact Fin.ext (hr.drop_apply_val_of_eq _ (0 : Fin 2) (0 : Fin 4))
    | ⟨1, _⟩ => exact Fin.ext (hr.drop_apply_val_of_eq _ (1 : Fin 2) (1 : Fin 4))
  case surj =>
    intro i hi
    have h0 : i (0 : Fin 4) = b :=
      Fin.ext ((hr.drop_apply_val_of_eq i (0 : Fin 2) (0 : Fin 4)).symm.trans
        (congrArg Fin.val (congrFun hi (0 : Fin 2))))
    have h1 : i (1 : Fin 4) = ch :=
      Fin.ext ((hr.drop_apply_val_of_eq i (1 : Fin 2) (1 : Fin 4)).symm.trans
        (congrArg Fin.val (congrFun hi (1 : Fin 2))))
    refine ⟨px (i (2 : Fin 4)) (i (3 : Fin 4)), ?_⟩
    funext a
    match a with
    | ⟨0, _⟩ => exact h0.symm
    | ⟨1, _⟩ => exact h1.symm
    | ⟨2, _⟩ => exact line_px (i (2 : Fin 4)) (i (3 : Fin 4))
    | ⟨3, _⟩ => exact col_px (i (2 : Fin 4)) (i (3 : Fin 4))

/-- The same for a `[16, 1, 64, 64]` array. -/
theorem sum23_one (X : FVec Ideal ⟨4, ![16, 1, 64, 64]⟩ .f32)
    (hr : (⟨4, ![16, 1, 64, 64]⟩ : Shape).ReducesTo [2, 3] ⟨2, ![16, 1]⟩)
    (hu : 0 < (⟨0, ![]⟩ : Shape).numel) (b : Fin 16) (ch : Fin 1) :
    Host.reduceAdd X (constant (F := Ideal) ⟨0, ![]⟩ .f32 0x00000000#32) hr hu (ix2 b ch)
      = ∑ k : Fin 4096, X (ix4 b ch (line k) (col k)) := by
  have key := Cert.PoolFold.hostReduceAdd_eq_sum X (constant (F := Ideal) ⟨0, ![]⟩ .f32 0x00000000#32) hr hu
    (ix2 b ch) (fun k : Fin 4096 => ix4 b ch (line k) (col k)) ?inj ?drop ?surj
  · refine key.trans ?_
    show Ideal.ofBits .f32 0x00000000#32 + _ = _
    rw [Ideal.ofBits_zero_f32, zero_add]
  case inj =>
    intro k k' hk
    have h2 : line k = line k' := congrFun hk (2 : Fin 4)
    have h3 : col k = col k' := congrFun hk (3 : Fin 4)
    rw [← px_line_col k, ← px_line_col k', h2, h3]
  case drop =>
    intro k
    funext a
    match a with
    | ⟨0, _⟩ => exact Fin.ext (hr.drop_apply_val_of_eq _ (0 : Fin 2) (0 : Fin 4))
    | ⟨1, _⟩ => exact Fin.ext (hr.drop_apply_val_of_eq _ (1 : Fin 2) (1 : Fin 4))
  case surj =>
    intro i hi
    have h0 : i (0 : Fin 4) = b :=
      Fin.ext ((hr.drop_apply_val_of_eq i (0 : Fin 2) (0 : Fin 4)).symm.trans
        (congrArg Fin.val (congrFun hi (0 : Fin 2))))
    have h1 : i (1 : Fin 4) = ch :=
      Fin.ext ((hr.drop_apply_val_of_eq i (1 : Fin 2) (1 : Fin 4)).symm.trans
        (congrArg Fin.val (congrFun hi (1 : Fin 2))))
    refine ⟨px (i (2 : Fin 4)) (i (3 : Fin 4)), ?_⟩
    funext a
    match a with
    | ⟨0, _⟩ => exact h0.symm
    | ⟨1, _⟩ => exact h1.symm
    | ⟨2, _⟩ => exact line_px (i (2 : Fin 4)) (i (3 : Fin 4))
    | ⟨3, _⟩ => exact col_px (i (2 : Fin 4)) (i (3 : Fin 4))

/-! ### The re-read entries of the broadcasts -/

theorem idx3 (b : Fin 16) : idx_main_v3 (ix4 b (0 : Fin 1) (0 : Fin 1) (0 : Fin 1)) = ix2 b (0 : Fin 1) := by
  funext a; match a with | ⟨0, _⟩ => rfl | ⟨1, _⟩ => rfl
theorem idx4 (b : Fin 16) (ch : Fin 512) (h w : Fin 64) : idx_main_v4 (ix4 b ch h w) = ix4 b (0 : Fin 1) h w := by
  funext a; match a with | ⟨0, _⟩ => rfl | ⟨1, _⟩ => rfl | ⟨2, _⟩ => rfl | ⟨3, _⟩ => rfl
theorem idx13 (b : Fin 16) (ch : Fin 512) (h w : Fin 64) : idx_main_v13 (ix4 b ch h w) = ix4 b (0 : Fin 1) h w := by
  funext a; match a with | ⟨0, _⟩ => rfl | ⟨1, _⟩ => rfl | ⟨2, _⟩ => rfl | ⟨3, _⟩ => rfl
theorem idx56 (b : Fin 16) (ch : Fin 512) (h w : Fin 64) : idx_main_v56 (ix4 b ch h w) = ix4 b (0 : Fin 1) h w := by
  funext a; match a with | ⟨0, _⟩ => rfl | ⟨1, _⟩ => rfl | ⟨2, _⟩ => rfl | ⟨3, _⟩ => rfl
theorem idx58 (b : Fin 16) (ch : Fin 512) (h w : Fin 64) : idx_main_v58 (ix4 b ch h w) = ix4 b (0 : Fin 1) h w := by
  funext a; match a with | ⟨0, _⟩ => rfl | ⟨1, _⟩ => rfl | ⟨2, _⟩ => rfl | ⟨3, _⟩ => rfl
theorem idx7 (b : Fin 16) (ch : Fin 512) : idx_main_v7 (ix4 b ch (0 : Fin 1) (0 : Fin 1)) = ix2 b ch := by
  funext a; match a with | ⟨0, _⟩ => rfl | ⟨1, _⟩ => rfl
theorem idx16 (b : Fin 16) (ch : Fin 512) : idx_main_v16 (ix4 b ch (0 : Fin 1) (0 : Fin 1)) = ix2 b ch := by
  funext a; match a with | ⟨0, _⟩ => rfl | ⟨1, _⟩ => rfl
theorem idx8 (b : Fin 16) (ch : Fin 512) : idx_main_v8 (ix4 b ch (0 : Fin 1) (0 : Fin 1)) = ix4 b (0 : Fin 1) (0 : Fin 1) (0 : Fin 1) := by
  funext a; match a with | ⟨0, _⟩ => rfl | ⟨1, _⟩ => rfl | ⟨2, _⟩ => rfl | ⟨3, _⟩ => rfl
theorem idx19 (b : Fin 16) (ch : Fin 512) : idx_main_v19 (ix4 b ch (0 : Fin 1) (0 : Fin 1)) = ix4 b (0 : Fin 1) (0 : Fin 1) (0 : Fin 1) := by
  funext a; match a with | ⟨0, _⟩ => rfl | ⟨1, _⟩ => rfl | ⟨2, _⟩ => rfl | ⟨3, _⟩ => rfl
theorem idx10 (b : Fin 16) (ch : Fin 512) (h w : Fin 64) : idx_main_v10 (ix4 b ch h w) = ix4 b ch (0 : Fin 1) (0 : Fin 1) := by
  funext a; match a with | ⟨0, _⟩ => rfl | ⟨1, _⟩ => rfl | ⟨2, _⟩ => rfl | ⟨3, _⟩ => rfl
theorem idx46 (b : Fin 16) (ch : Fin 512) (h w : Fin 64) : idx_main_v46 (ix4 b ch h w) = ix4 b ch (0 : Fin 1) (0 : Fin 1) := by
  funext a; match a with | ⟨0, _⟩ => rfl | ⟨1, _⟩ => rfl | ⟨2, _⟩ => rfl | ⟨3, _⟩ => rfl
theorem idx48 (b : Fin 16) (ch : Fin 512) (h w : Fin 64) : idx_main_v48 (ix4 b ch h w) = ix4 b ch (0 : Fin 1) (0 : Fin 1) := by
  funext a; match a with | ⟨0, _⟩ => rfl | ⟨1, _⟩ => rfl | ⟨2, _⟩ => rfl | ⟨3, _⟩ => rfl
theorem idx50 (b : Fin 16) (ch : Fin 512) (h w : Fin 64) : idx_main_v50 (ix4 b ch h w) = ix4 b ch (0 : Fin 1) (0 : Fin 1) := by
  funext a; match a with | ⟨0, _⟩ => rfl | ⟨1, _⟩ => rfl | ⟨2, _⟩ => rfl | ⟨3, _⟩ => rfl
theorem idx52 (b : Fin 16) (ch : Fin 512) (h w : Fin 64) : idx_main_v52 (ix4 b ch h w) = ix4 b ch (0 : Fin 1) (0 : Fin 1) := by
  funext a; match a with | ⟨0, _⟩ => rfl | ⟨1, _⟩ => rfl | ⟨2, _⟩ => rfl | ⟨3, _⟩ => rfl

/-! ### The content row's statistics -/

/-- A row read at the pixel of line `h`, column `w`. -/
theorem row4_px (x : (⟨4, ![16, 512, 64, 64]⟩ : Shape).Idx → EReal) (b : Fin 16) (ch : Fin 512) (h w : Fin 64) :
    row4 x b ch (px h w) = x (ix4 b ch h w) := by
  unfold row4
  rw [line_px, col_px]

/-- A mask row read at the pixel of line `h`, column `w`. -/
theorem mrow4_px (x : (⟨4, ![16, 1, 64, 64]⟩ : Shape).Idx → BitVec 32) (b : Fin 16) (h w : Fin 64) :
    mrow4 x b (px h w) = FloatOps.sitofp (F := Ideal) .f32 (x (ix4 b (0 : Fin 1) h w)) := by
  unfold mrow4
  rw [line_px, col_px]

/-- The masked count. -/
theorem cnt_at (x2 : (⟨S16x1x64x64, .i32⟩ : BufTy).Contents (Elt Ideal)) (b : Fin 16) :
    val_main_v2 (F := Ideal) x2 (ix2 b (0 : Fin 1)) = cnt (mrow4 x2 b) :=
  (sum23_one (val_main_v0 (F := Ideal) x2) reducesTo_S16x1x64x64_S16x1_d2_3 h_S_ b 0).trans rfl

/-- The masked sum. -/
theorem sumxm_at (x0 : (⟨S16x512x64x64, .f32⟩ : BufTy).Contents (Elt Ideal)) (x2 : (⟨S16x1x64x64, .i32⟩ : BufTy).Contents (Elt Ideal)) (b : Fin 16) (ch : Fin 512) :
    val_main_v6 (F := Ideal) x0 x2 (ix2 b ch) = ∑ k, row4 x0 b ch k * mrow4 x2 b k := by
  refine (sum23 (val_main_v5 (F := Ideal) x0 x2) reducesTo_S16x512x64x64_S16x512_d2_3 h_S_ b ch).trans ?_
  refine Finset.sum_congr rfl fun k _ => ?_
  rw [val_main_v5_apply, val_main_v4_apply, idx4]
  rfl

/-- The masked mean. -/
theorem mean_at (x0 : (⟨S16x512x64x64, .f32⟩ : BufTy).Contents (Elt Ideal)) (x2 : (⟨S16x1x64x64, .i32⟩ : BufTy).Contents (Elt Ideal)) (b : Fin 16) (ch : Fin 512) :
    val_main_v9 (F := Ideal) x0 x2 (ix4 b ch (0 : Fin 1) (0 : Fin 1)) = mean (row4 x0 b ch) (mrow4 x2 b) := by
  rw [val_main_v9_apply, val_main_v7_apply, val_main_v8_apply, val_main_v3_apply, idx7, idx8, idx3, sumxm_at, cnt_at]
  rfl

/-- The deviation from the masked mean. -/
theorem dev_at (x0 : (⟨S16x512x64x64, .f32⟩ : BufTy).Contents (Elt Ideal)) (x2 : (⟨S16x1x64x64, .i32⟩ : BufTy).Contents (Elt Ideal)) (b : Fin 16) (ch : Fin 512) (h w : Fin 64) :
    val_main_v11 (F := Ideal) x0 x2 (ix4 b ch h w) = x0 (ix4 b ch h w) - mean (row4 x0 b ch) (mrow4 x2 b) := by
  rw [val_main_v11_apply, val_main_v10_apply, idx10, mean_at]
  rfl

/-- The masked sum of squared deviations. -/
theorem ssq_at (x0 : (⟨S16x512x64x64, .f32⟩ : BufTy).Contents (Elt Ideal)) (x2 : (⟨S16x1x64x64, .i32⟩ : BufTy).Contents (Elt Ideal)) (b : Fin 16) (ch : Fin 512) :
    val_main_v15 (F := Ideal) x0 x2 (ix2 b ch)
      = ∑ k, mrow4 x2 b k * ((row4 x0 b ch k - mean (row4 x0 b ch) (mrow4 x2 b))
          * (row4 x0 b ch k - mean (row4 x0 b ch) (mrow4 x2 b))) := by
  refine (sum23 (val_main_v14 (F := Ideal) x0 x2) reducesTo_S16x512x64x64_S16x512_d2_3 h_S_ b ch).trans ?_
  refine Finset.sum_congr rfl fun k _ => ?_
  rw [val_main_v14_apply, val_main_v13_apply, idx13, val_main_v12_apply, dev_at]
  rfl

/-- The two-pass masked variance. -/
theorem var_at (x0 : (⟨S16x512x64x64, .f32⟩ : BufTy).Contents (Elt Ideal)) (x2 : (⟨S16x1x64x64, .i32⟩ : BufTy).Contents (Elt Ideal)) (b : Fin 16) (ch : Fin 512) :
    val_main_v20 (F := Ideal) x0 x2 (ix4 b ch (0 : Fin 1) (0 : Fin 1))
      = varTwo (Ideal.ofBits .f32 0x3F800000#32) (row4 x0 b ch) (mrow4 x2 b) := by
  rw [val_main_v20_apply, val_main_v16_apply, val_main_v19_apply, val_main_v18_apply, val_main_v3_apply,
    val_main_v17_apply, val_main_cst_2_apply, idx16, idx19, idx3, ssq_at, cnt_at]
  simp only [Ideal.hostDivf_def, Ideal.subf_def, Ideal.ofBits_def]
  rfl

/-- The deviation: the square root of the variance plus `ε`. -/
theorem sd_at (x0 : (⟨S16x512x64x64, .f32⟩ : BufTy).Contents (Elt Ideal)) (x2 : (⟨S16x1x64x64, .i32⟩ : BufTy).Contents (Elt Ideal)) (b : Fin 16) (ch : Fin 512) :
    val_main_v23 (F := Ideal) x0 x2 (ix4 b ch (0 : Fin 1) (0 : Fin 1))
      = Ideal.sqrt (varTwo (Ideal.ofBits .f32 0x3F800000#32) (row4 x0 b ch) (mrow4 x2 b) + (Ideal.ofBits .f32 0x3727C5AC#32)) := by
  rw [val_main_v23_apply, val_main_v22_apply, val_main_v21_apply, val_main_cst_3_apply, var_at]
  simp only [Ideal.hostUnary_sqrt_def, Ideal.addf_def, Ideal.ofBits_def]

/-! ### The style row's statistics are the same operations on the other arguments -/

theorem v31_eq (x1 : (⟨S16x512x64x64, .f32⟩ : BufTy).Contents (Elt Ideal)) (x3 : (⟨S16x1x64x64, .i32⟩ : BufTy).Contents (Elt Ideal)) : val_main_v31 (F := Ideal) x1 x3 = val_main_v9 (F := Ideal) x1 x3 := rfl

theorem v45_eq (x1 : (⟨S16x512x64x64, .f32⟩ : BufTy).Contents (Elt Ideal)) (x3 : (⟨S16x1x64x64, .i32⟩ : BufTy).Contents (Elt Ideal)) : val_main_v45 (F := Ideal) x1 x3 = val_main_v23 (F := Ideal) x1 x3 := rfl

/-! ### The result -/

/-- The reference's result at batch entry `b`, channel `ch`, line `h`, column `w` is the two-pass specification of
    the content and style rows at pixel `64·h + w`. -/
theorem ref_apply (x0 x1 : (⟨S16x512x64x64, .f32⟩ : BufTy).Contents (Elt Ideal)) (x2 x3 : (⟨S16x1x64x64, .i32⟩ : BufTy).Contents (Elt Ideal)) (b : Fin 16) (ch : Fin 512) (h w : Fin 64) :
    val_main_v60 (F := Ideal) x0 x1 x2 x3 (ix4 b ch h w)
      = Cert.Adain.outTwo (Ideal.ofBits .f32 0x3F800000#32) (Ideal.ofBits .f32 0x3727C5AC#32)
          (row4 x0 b ch) (mrow4 x2 b) (row4 x1 b ch) (mrow4 x3 b) (px h w) := by
  rw [val_main_v60_apply, val_main_v57_apply, val_main_v56_apply, val_main_v55_apply, val_main_v54_apply,
    val_main_v59_apply, val_main_v58_apply, val_main_v53_apply, val_main_v51_apply, val_main_v50_apply,
    val_main_v49_apply, val_main_v47_apply, val_main_v46_apply, val_main_v48_apply, val_main_v52_apply,
    val_main_cst_9_apply, idx56, idx58, idx50, idx46, idx48, idx52, val_main_v0_apply, v45_eq, v31_eq, sd_at, sd_at,
    mean_at, mean_at]
  unfold Cert.Adain.outTwo Cert.Adain.blend
  rw [row4_px, mrow4_px]
  simp only [Ideal.hostDivf_def, Ideal.subf_def, Ideal.addf_def, Ideal.mulf_def, Ideal.ofBits_def]

end Cert.RefValue

end
-- ==== Proof.LibFiniteReal.lean ====
/-
  Real numbers among the extended reals: what a finiteness test says, and which host operations keep arrays real.

  A float precondition of the form `all (|x| < +∞)` reaches a proof as a reduction by `and`, from the constant one, of
  the comparison of `|x|` (the host's `max x (−x)`) with the broadcast pattern of `+∞`, stated to be one.  Then every
  comparison is one; a comparison `a < b` that is one means `a < b`; and `max x (−x) < ⊤` excludes both infinities, so
  `x` is the coercion of a real number.

  A gather only re-reads entries of its operand, so it keeps a real array real whatever its indices are.  An
  accumulating scatter is, entry by entry, the operand's entry plus a finite sum of update entries, so it keeps real
  arrays real.  A broadcast of the zero pattern is the real number zero everywhere.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«108671_j71227737637495_1_alg».proof.Proof.LibGcnStats

noncomputable section

open scoped BigOperators

namespace Cert.FiniteReal

open Idealize.ShloMosaic Idealize.ShloMosaic.ValueIdx Cert.GcnStats

/-- The scalar shape has one index. -/
instance : Subsingleton (⟨0, ![]⟩ : Shape).Idx := ⟨fun a b => funext fun d => d.elim0⟩

/-- The pattern with all exponent bits set and a zero significand denotes `+∞`. -/
theorem ofBits_inf : Ideal.ofBits .f32 0x7F800000#32 = ⊤ := by
  simp [Ideal.ofBits, Ideal.ieee]

/-- An ordered `less than` whose word is one says `a < b`. -/
theorem lt_of_cmp_olt {a b : EReal} (h : Ideal.cmp .olt a b = 1#1) : a < b := by
  by_contra hn
  have h' : BitVec.ofBool (decide (a < b)) = 1#1 := h
  rw [decide_eq_false hn] at h'
  exact absurd h' (by decide)

/-- An extended real whose absolute value tests below the pattern of `+∞` is a real number. -/
theorem isReal_of_abs_lt_inf (x : EReal)
    (h : Ideal.cmp .olt (max x (-x)) (Ideal.ofBits .f32 0x7F800000#32) = 1#1) : IsReal x := by
  rw [ofBits_inf] at h
  obtain ⟨h1, h2⟩ := max_lt_iff.mp (lt_of_cmp_olt h)
  have hb : x ≠ ⊥ := by
    intro hx
    rw [hx, EReal.neg_bot] at h2
    exact lt_irrefl _ h2
  exact ⟨x.toReal, (EReal.coe_toReal h1.ne hb).symm⟩

/-- `all (|X| < +∞)` stated as one makes every entry of `X` a real number. -/
theorem real_of_all_finite {s : Shape} {axes : List (Fin s.rank)} (X : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
        (cmpf (F := Ideal) .olt (Host.absf (F := Ideal) X)
          (broadcastInDim s ![] hb (constant (F := Ideal) ⟨0, ![]⟩ .f32 0x7F800000#32)))
        (constantI ⟨0, ![]⟩ 1 1#1) hr hu ix0 = 1#1) : ∀ i, IsReal (X i) := by
  intro i
  have hi := Host.reduce_andi_all _ _ hr hu ix0 h i
  exact isReal_of_abs_lt_inf (X i) hi

/-- A conjunction of two scalar truth values that is one has both conjuncts one. -/
theorem and_ix0 (x y : IVec ⟨0, ![]⟩ 1) (h : andi x y ix0 = 1#1) : x ix0 = 1#1 ∧ y ix0 = 1#1 :=
  IntOp.andi_eq_one.mp h

/-- A gather of a real array is real. -/
theorem real_gather {s si t : Shape} {w : ℕ} (d : GatherDims s si t) (x : s.Idx → EReal) (idx : IVec si w)
    (hx : ∀ i, IsReal (x i)) : ∀ j, IsReal (Host.gather d x idx j) := by
  intro j
  show IsReal (x (d.operandIdx j idx))
  exact hx _

/-- An accumulating scatter of real updates into a real operand is real. -/
theorem real_scatterAdd {s si u : Shape} {w : ℕ} (d : ScatterDims s si u) (x : FVec Ideal s .f32) (idx : IVec si w)
    (upd : FVec Ideal u .f32) (hx : ∀ i, IsReal (x i)) (hu : ∀ i, IsReal (upd i)) :
    ∀ j, IsReal (Host.scatterAdd (F := Ideal) d x idx upd j) := by
  intro j
  show IsReal (Ideal.hostScatterAdd d x idx upd j)
  unfold Ideal.hostScatterAdd
  exact (hx j).add (isReal_sum _ _ fun k _ => hu k)

/-- The zero pattern broadcast to any shape is the real number zero everywhere. -/
theorem real_bcast_zero {t : Shape} (hb : (⟨0, ![]⟩ : Shape).BroadcastsInDim t (![] : Fin 0 → Fin t.rank)) :
    ∀ j, IsReal (broadcastInDim t ![] hb (constant (F := Ideal) ⟨0, ![]⟩ .f32 0x00000000#32) j) := by
  intro j
  show IsReal (Ideal.ofBits .f32 0x00000000#32)
  rw [Ideal.ofBits_zero_f32]
  exact isReal_zero

end Cert.FiniteReal

end
-- ==== Proof.PreFacts.lean ====
/-
  What the precondition says of the four inputs.

  The precondition is a conjunction of four tests, each a reduction by `and` over a whole array stated to be one:
  the two float arrays have every absolute value below `+∞`, so every entry is a real number; the two integer masks
  have at every entry `(m = 0) or (m = 1)` equal to one, so every entry is the word zero or the word one.
-/
import proofs.«108671_j71227737637495_1_alg».proof.Pre_finite_inputs
import proofs.«108671_j71227737637495_1_alg».proof.Proof.LibFiniteReal
import Idealize.ShloMosaic.Lib.ReduceAll

noncomputable section

namespace Cert.PreFacts

open Idealize.ShloMosaic Idealize.ShloMosaic.ValueIdx Cert.GcnStats

/-- A disjunction of two equality tests that is one says one of the two equalities holds. -/
theorem eq_or_eq_of_ori_cmpi {w : ℕ} (a b c : BitVec w)
    (h : IntOp.ori (IntOp.cmpi .eq a b) (IntOp.cmpi .eq a c) = 1#1) : a = b ∨ a = c := by
  by_cases h1 : a = b
  · exact Or.inl h1
  · by_cases h2 : a = c
    · exact Or.inr h2
    · exfalso
      have e1 : (a == b) = false := by simp [h1]
      have e2 : (a == c) = false := by simp [h2]
      have h' : BitVec.ofBool (a == b) ||| BitVec.ofBool (a == c) = 1#1 := h
      rw [e1, e2] at h'
      exact absurd h' (by decide)

/-- The precondition makes both float inputs real and both masks arrays of the words zero and one. -/
theorem pre_facts [Cert.Pre_finite_inputs.Facts]
    (a0 a1 : FVec Ideal Cert.Pre_finite_inputs.S16x512x64x64 .f32)
    (a2 a3 : IVec Cert.Pre_finite_inputs.S16x1x64x64 32)
    (h : Cert.Pre_finite_inputs.fn (F := Ideal) a0 a1 a2 a3 = fun _ => 1#1) :
    (∀ i, Cert.GcnStats.IsReal (a0 i)) ∧ (∀ i, Cert.GcnStats.IsReal (a1 i)) ∧
      (∀ i, a2 i = 0#32 ∨ a2 i = 1#32) ∧ (∀ i, a3 i = 0#32 ∨ a3 i = 1#32) := by
  have h0 := congrFun h ix0
  simp only [Cert.Pre_finite_inputs.fn, Cert.Pre_finite_inputs.fn_part1] at h0
  obtain ⟨h123, h4⟩ := Cert.FiniteReal.and_ix0 _ _ h0
  obtain ⟨h12, h3⟩ := Cert.FiniteReal.and_ix0 _ _ h123
  obtain ⟨h1, h2⟩ := Cert.FiniteReal.and_ix0 _ _ h12
  refine ⟨Cert.FiniteReal.real_of_all_finite a0 _ _ _ h1, Cert.FiniteReal.real_of_all_finite a1 _ _ _ h2,
    fun i => ?_, fun i => ?_⟩
  · exact eq_or_eq_of_ori_cmpi _ _ _ (Host.reduce_andi_all _ _ _ _ ix0 h3 i)
  · exact eq_or_eq_of_ori_cmpi _ _ _ (Host.reduce_andi_all _ _ _ _ ix0 h4 i)

end Cert.PreFacts

end
-- ==== Proof.lean ====
/-
  Masked adaptive instance normalisation: the kernel against its reference, on the extended reals.

  For every batch entry and channel both programs normalise the content picture by its masked mean and unbiased
  masked deviation, re-scale and shift it by the style picture's, and blend the outcome with the content picture
  by the content mask.  They differ in the variance only: the kernel takes it in one pass, from the masked sum
  of squares, `(∑ x²·m − (∑ m)·μ²) / (∑ m − 1)`; the reference in two passes, from the masked squared deviations,
  `(∑ m·(x − μ)²) / (∑ m − 1)`.  With every picture entry a real number and every mask entry zero or one the two
  numerators agree: when the mask selects something the mean is a real number and the identity is the real one;
  when it selects nothing every mask entry is zero and both numerators are zero, whatever the quotient `0 / 0`
  is read as.  The kernel tiles the channels in groups of 128 and flattens each picture to a row of 4096 pixels;
  a sum over the flattened row is the sum over the picture.

  The three frames are the generated ones (the reference's is its generated run with the result dropped); the
  kernel's idealisation rewrote nothing, so there is nothing to preserve.
-/
import proofs.«108671_j71227737637495_1_alg».proof.Defs
import proofs.«108671_j71227737637495_1_alg».proof.Proof.Gen.Kernel
import proofs.«108671_j71227737637495_1_alg».proof.Proof.Gen.Kernel.Skeleton
import proofs.«108671_j71227737637495_1_alg».proof.Proof.Gen.Kernel.Launch
import proofs.«108671_j71227737637495_1_alg».proof.Proof.Gen.Kernel.Points
import proofs.«108671_j71227737637495_1_alg».proof.Proof.Gen.Kernel.Frame
import proofs.«108671_j71227737637495_1_alg».proof.Proof.Gen.KernelIdeal
import proofs.«108671_j71227737637495_1_alg».proof.Proof.Gen.KernelIdeal.Skeleton
import proofs.«108671_j71227737637495_1_alg».proof.Proof.Gen.KernelIdeal.Launch
import proofs.«108671_j71227737637495_1_alg».proof.Proof.Gen.KernelIdeal.Points
import proofs.«108671_j71227737637495_1_alg».proof.Proof.Gen.KernelIdeal.Frame
import proofs.«108671_j71227737637495_1_alg».proof.Proof.Gen.ReferenceIdeal
import proofs.«108671_j71227737637495_1_alg».proof.Proof.Gen.Pre_finite_inputs
import proofs.«108671_j71227737637495_1_alg».proof.Proof.Gen.ReferenceIdeal.Run
import proofs.«108671_j71227737637495_1_alg».proof.Proof.Gen.ReferenceIdeal.Read
import proofs.«108671_j71227737637495_1_alg».proof.Proof.KernelArray
import proofs.«108671_j71227737637495_1_alg».proof.Proof.RefValue
import proofs.«108671_j71227737637495_1_alg».proof.Proof.LibMaskedVar
import proofs.«108671_j71227737637495_1_alg».proof.Proof.PreFacts
import Idealize.ShloMosaic.Adequacy
import Idealize.ShloMosaic.Init

noncomputable section

namespace Cert.Proof

open Idealize.ShloMosaic Idealize.ShloMosaic.ValueIdx Idealize.SL.Sem Cert.Rows Cert.Adain

/-- A mask entry that is the word zero or the word one reads as the real number zero or one. -/
theorem mask_real (a : BitVec 32) (h : a = 0#32 ∨ a = 1#32) :
    FloatOps.sitofp (F := Ideal) .f32 a = 0 ∨ FloatOps.sitofp (F := Ideal) .f32 a = 1 := by
  rcases h with rfl | rfl
  · left; simp [FloatOps.sitofp]
  · right; simp [FloatOps.sitofp]

/-- Under the precondition the one-pass and the two-pass results are one function of the arguments. -/
theorem one_eq_two (one eps : EReal) (a0 a1 : (⟨4, ![16, 512, 64, 64]⟩ : Shape).Idx → EReal)
    (a2 a3 : (⟨4, ![16, 1, 64, 64]⟩ : Shape).Idx → BitVec 32)
    (h0 : ∀ i, Cert.GcnStats.IsReal (a0 i)) (h1 : ∀ i, Cert.GcnStats.IsReal (a1 i))
    (h2 : ∀ i, a2 i = 0#32 ∨ a2 i = 1#32) (h3 : ∀ i, a3 i = 0#32 ∨ a3 i = 1#32)
    (b : Fin 16) (ch : Fin 512) (k : Fin 4096) :
    outTwo one eps (row4 a0 b ch) (mrow4 a2 b) (row4 a1 b ch) (mrow4 a3 b) k
      = outOne one eps (row4 a0 b ch) (mrow4 a2 b) (row4 a1 b ch) (mrow4 a3 b) k := by
  exact outTwo_eq_outOne one eps _ _ _ _ (fun _ => h0 _) (fun _ => h1 _) (fun _ => mask_real _ (h2 _))
    (fun _ => mask_real _ (h3 _)) k

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends at the one-pass function of the arguments, the reference's at the two-pass one of
    arguments that agree; under the precondition they are one function. -/
theorem algebraic : Cert.algebraic_KernelIdeal_ReferenceIdeal := by
  intro m ρ m' ρ' hpre hagree
  refine ⟨fun c => Cert.KernelIdeal.Arr.G4 (Cert.KernelIdeal.Arr.A0 m c) (Cert.KernelIdeal.Arr.A1 m c)
    (Cert.KernelIdeal.Arr.A2 m c) (Cert.KernelIdeal.Arr.A3 m c), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.PreFacts.pre_facts _ _ _ _ (hpre c)
  rw [Cert.ReferenceIdeal.Read.val_main_v60_eq, (hagree c).1, (hagree c).2.1, (hagree c).2.2.1, (hagree c).2.2.2]
  funext i
  obtain ⟨b, ch, hh, w, rfl⟩ : ∃ (b : Fin 16) (ch : Fin 512) (hh w : Fin 64), i = ix4 b ch hh w :=
    ⟨i 0, i 1, i 2, i 3, eq_ix4 i⟩
  rw [Cert.RefValue.ref_apply]
  exact one_eq_two _ _ _ _ _ _ h0 h1 h2 h3 b ch (px hh w)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
